-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S1x11008 : Shape := ⟨2, ![1, 11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S1x11008 : S_.BroadcastsInDim S1x11008 (![] : Fin 0 → Fin S1x11008.rank)
  reducesTo_S1x11008_S_d0_1 : S1x11008.ReducesTo [0, 1] S_

variable [Facts]

def fn {F : FTy → Type} [FloatOps F] (main_arg0 : FVec F S4x2048x4096 .f32) (main_arg1 : FVec F S11008x4096 .f32) (main_arg2 : FVec F S1x11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S1x11008 .f32 := Host.absf main_arg2
  let main_cst_2 : FVec F S_ .f32 := constant S_ .f32 0x7F800000#32
  let main_v10 : FVec F S1x11008 .f32 := broadcastInDim S1x11008 ![] bcast_S_S1x11008 main_cst_2
  let main_v11 : IVec S1x11008 1 := cmpf .olt main_v9 main_v10
  let main_c_3 : IVec S_ 1 := constantI S_ 1 1#1
  let main_v12 : IVec S_ 1 := (fun x v => Host.reduce IntOp.andi x v reducesTo_S1x11008_S_d0_1 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S1x11008 : Shape := ⟨2, ![1, 11008]⟩
abbrev S8192x4096 : Shape := ⟨2, ![8192, 4096]⟩
abbrev S8192x11008 : Shape := ⟨2, ![8192, 11008]⟩
abbrev S512x4096 : Shape := ⟨2, ![512, 4096]⟩
abbrev S128x4096 : Shape := ⟨2, ![128, 4096]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S4096x128 : Shape := ⟨2, ![4096, 128]⟩
abbrev S4x2048x11008 : Shape := ⟨3, ![4, 2048, 11008]⟩

abbrev nBuf : Space → Nat
  | .hbm => 6
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S1x11008, .f32⟩
  | .hbm, ⟨3, _⟩ => ⟨S8192x4096, .f32⟩
  | .hbm, ⟨4, _⟩ => ⟨S8192x11008, .f32⟩
  | .hbm, ⟨5, _⟩ => ⟨S4x2048x11008, .f32⟩
  | .local _ .vmem, ⟨0, _⟩ => ⟨S512x4096, .f32⟩
  | .local _ .vmem, ⟨1, _⟩ => ⟨S512x4096, .f32⟩
  | .local _ .vmem, ⟨2, _⟩ => ⟨S128x4096, .f32⟩
  | .local _ .vmem, ⟨3, _⟩ => ⟨S128x4096, .f32⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 86], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  transposes_S128x4096_p1_0_S4096x128 : S128x4096.Transposes [1, 0] S4096x128
  inb_S1x128_S1x128_0_0 : ∀ a, (![0, 0] : Fin 2 → Nat) a + S1x128.size a ≤ S1x128.size a
  h_S1x128 : 0 < S1x128.numel
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S8192x11008_S4x2048x11008 : S8192x11008.ShapeCasts S4x2048x11008
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S11008x4096.size a
  hwx0_1 : ∀ i : grid0.Coords, EltTy.bits .f32 = 32 ∨ (Rect.block (s := S11008x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x11008.size a
  hwx0_2 : ∀ i : grid0.Coords, EltTy.bits .f32 = 32 ∨ (Rect.block (s := S1x11008) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S8192x11008.size a
  hwx0_3 : ∀ i : grid0.Coords, EltTy.bits .f32 = 32 ∨ (Rect.block (s := S8192x11008) S512x128.size (cc0_transform_3 i) (hinb0_3 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S1x11008 : Shape := ⟨2, ![1, 11008]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S4096x11008 : Shape := ⟨2, ![4096, 11008]⟩
abbrev S8192x11008 : Shape := ⟨2, ![8192, 11008]⟩
abbrev S4x2048x11008 : Shape := ⟨3, ![4, 2048, 11008]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S1x11008, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S4096x11008, .f32⟩
  | .hbm, ⟨20, _⟩ => ⟨S8192x11008, .f32⟩
  | .hbm, ⟨21, _⟩ => ⟨S8192x11008, .f32⟩
  | .hbm, ⟨22, _⟩ => ⟨S8192x11008, .f32⟩
  | .hbm, ⟨23, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S4x2048x4096_S8192x4096 : S4x2048x4096.ShapeCasts S8192x4096
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  transposes_S11008x4096_S4096x11008_1_0 : S11008x4096.Transposes [1, 0] S4096x11008
  bcast_S1x11008_S8192x11008_0_1 : S1x11008.BroadcastsInDim S8192x11008 (![0, 1] : Fin 2 → Fin S8192x11008.rank)
  shapeCasts_S8192x11008_S4x2048x11008 : S8192x11008.ShapeCasts S4x2048x11008
  dot_S8192x4096_S4096x11008_S8192x11008_1_0_0_1_n_n_wf : DotDims.WF S8192x4096 S4096x11008 S8192x11008 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.LibRowAbsMax.lean ====
/-
  The largest magnitude of each row of an R×K array, on the extended reals, as both kinds of program compute it.

  For a row x of K entries, rowAbsMax x = max over k of |x_k|, the maximum taken from -∞ (the f32 pattern 0xFF800000), with
  |x| = max(x, -x). At row p of an R×K array X:
    * the vector unit's lane maximum of |X| over the second axis, from the accumulator pattern -∞, is rowAbsMax of row p;
    * the host's reduce with a maximum body over the second axis, from a scalar -∞, is the same.
  Both rest on one index fact: the index over row p with coordinate k inserted on the reduced axis is (p, k).
-/
import Idealize.ShloMosaic.PureOps.Ideal.Laws
import Idealize.ShloMosaic.Lib.ValueIdx

noncomputable section

namespace Idealize.ShloMosaic.RowAbsMax

open Idealize.ShloMosaic Idealize.ShloMosaic.ValueIdx

/-- The largest magnitude of a row, the maximum taken from -∞ (the pattern 0xFF800000). -/
def rowAbsMax {K : ℕ} (xr : Fin K → EReal) : EReal :=
  (Finset.univ : Finset (Fin K)).fold max (Ideal.ofBits .f32 0xFF800000#32) (fun k => max (xr k) (-(xr k)))

/-- The index over row p of an R×K array with coordinate k inserted on the reduced second axis is (p, k). -/
theorem lift_row {R K : ℕ} (h : Shape.Reduces ⟨2, ![R, K]⟩ [1] ⟨1, ![R]⟩) (p : Fin R) (k : Fin K) :
    h.lift (ix1 p) k = ix2 p k := by
  funext a
  apply Fin.ext
  match a with
  | ⟨0, _⟩ => rfl
  | ⟨1, _⟩ => rfl

/-- The vector unit's row maximum of the magnitudes, from -∞, at row p: the row's largest magnitude. -/
theorem rowmax_vector {R K : ℕ} (X : FVec Ideal ⟨2, ![R, K]⟩ .f32) (h : Shape.Reduces ⟨2, ![R, K]⟩ [1] ⟨1, ![R]⟩)
    (hφ : FKind.Formats .f32) (hacc : (0xFF800000#32 : BitVec 32) = FKind.maximumf.neutral .f32 hφ) (p : Fin R) :
    multiReduction .maximumf [1] ⟨1, ![R]⟩ (absf X) 0xFF800000#32 h hφ hacc (ix1 p) = rowAbsMax (fun k => X (ix2 p k)) := by
  refine (Ideal.multiReduction_maximumf_single (absf X) 0xFF800000#32 h hφ hacc (ix1 p)).trans ?_
  have e : (absf X ∘ h.lift (ix1 p)) = fun k : Fin K => max (X (ix2 p k)) (-(X (ix2 p k))) :=
    funext fun k => by
      show absf X (h.lift (ix1 p) k) = _
      rw [lift_row h p k]
      rfl
  rw [e]
  rfl

/-- The host's reduce with a maximum body over the second axis, from a scalar -∞, at row p: the same. -/
theorem rowmax_host {R K : ℕ} (X : FVec Ideal ⟨2, ![R, K]⟩ .f32) (h' : Shape.ReducesTo ⟨2, ![R, K]⟩ [1] ⟨1, ![R]⟩)
    (h : Shape.Reduces ⟨2, ![R, K]⟩ [1] ⟨1, ![R]⟩) (hu : 0 < (⟨0, ![]⟩ : Shape).numel) (p : Fin R) :
    Host.reduce FloatOps.maximumf (Host.absf X) (constant (F := Ideal) ⟨0, ![]⟩ .f32 0xFF800000#32) h' hu (ix1 p)
      = rowAbsMax (fun k => X (ix2 p k)) := by
  refine (Host.reduce_eq_fold_single FloatOps.maximumf (Host.absf X) (constant (F := Ideal) ⟨0, ![]⟩ .f32 0xFF800000#32) h' h hu (ix1 p)).trans ?_
  have e : (Host.absf X ∘ h.lift (ix1 p)) = fun k : Fin K => max (X (ix2 p k)) (-(X (ix2 p k))) :=
    funext fun k => by
      show Host.absf X (h.lift (ix1 p) k) = _
      rw [lift_row h p k]
      rfl
  rw [e]
  rfl

end Idealize.ShloMosaic.RowAbsMax

end
-- ==== Proof.QuantSpec.lean ====
/-
  Per-token 4-bit fake quantisation followed by a linear layer, as one function of the arguments on the extended reals.

  For a row x of 4096 activations: its largest magnitude A = max_k |x_k| (taken from -∞), its step s = max(A, ε) / 7 with ε
  the f32 literal nearest 1e-5, and its quantised entries q_k = roundeven(x_k / s) · s. The layer's output for that row and an
  output channel with weight row w and bias b is (Σ_k q_k · w_k) + b. Nothing here is rearranged between the two programs:
  each computes exactly this expression, the kernel on 512×128 tiles of the 8192×11008 output, the reference on the whole array.
-/
import Idealize.ShloMosaic.PureOps.Ideal.Laws
import Idealize.ShloMosaic.Lib.ValueIdx
import proofs.«106530_j14843406975731_1_alg».proof.Proof.LibRowAbsMax

noncomputable section

open scoped BigOperators

namespace Cert.QuantLinear

open Idealize.ShloMosaic Idealize.ShloMosaic.ValueIdx

export Idealize.ShloMosaic.RowAbsMax (rowAbsMax lift_row rowmax_vector rowmax_host)

/-- The row's quantisation step: the largest magnitude, floored at the literal 0x3727C5AC (1e-5 as an f32), over 7. -/
def rowScale (xr : Fin 4096 → EReal) : EReal :=
  Ideal.div (max (rowAbsMax xr) (Ideal.ofBits .f32 0x3727C5AC#32)) (Ideal.ofBits .f32 0x40E00000#32)

/-- Entry k of the row, rounded to the nearest multiple of the step (ties to even). -/
def quant (xr : Fin 4096 → EReal) (k : Fin 4096) : EReal :=
  Ideal.liftRound Ideal.roundHalfEven (Ideal.div (xr k) (rowScale xr)) * rowScale xr

/-- One output entry: the quantised row against a weight row, plus the bias. -/
def outEntry (xr wr : Fin 4096 → EReal) (b : EReal) : EReal :=
  (∑ k : Fin 4096, quant xr k * wr k) + b

/-- The whole 8192×11008 output from the 8192×4096 activations, the 11008×4096 weights and the 1×11008 bias:
    entry (r, c) uses row r of the activations, row c of the weights and bias entry c. -/
def layer (X : (⟨2, ![8192, 4096]⟩ : Shape).Idx → EReal) (W : (⟨2, ![11008, 4096]⟩ : Shape).Idx → EReal)
    (B : (⟨2, ![1, 11008]⟩ : Shape).Idx → EReal) : (⟨2, ![8192, 11008]⟩ : Shape).Idx → EReal :=
  fun i => outEntry (fun k => X (ix2 (i 0 : Fin 8192) k)) (fun k => W (ix2 (i 1 : Fin 11008) k)) (B (ix2 (0 : Fin 1) (i 1 : Fin 11008)))

theorem layer_apply (X : (⟨2, ![8192, 4096]⟩ : Shape).Idx → EReal) (W : (⟨2, ![11008, 4096]⟩ : Shape).Idx → EReal)
    (B : (⟨2, ![1, 11008]⟩ : Shape).Idx → EReal) (r : Fin 8192) (c : Fin 11008) :
    layer X W B (ix2 r c) = outEntry (fun k => X (ix2 r k)) (fun k => W (ix2 c k)) (B (ix2 (0 : Fin 1) c)) := rfl

/-- An entry of the layer from any description of the row, the weight row and the bias entry it reads. -/
theorem layer_eq_of (X : (⟨2, ![8192, 4096]⟩ : Shape).Idx → EReal) (W : (⟨2, ![11008, 4096]⟩ : Shape).Idx → EReal)
    (B : (⟨2, ![1, 11008]⟩ : Shape).Idx → EReal) (i : (⟨2, ![8192, 11008]⟩ : Shape).Idx)
    (xr wr : Fin 4096 → EReal) (b : EReal)
    (hx : ∀ k : Fin 4096, X (ix2 (i 0 : Fin 8192) k) = xr k) (hw : ∀ k : Fin 4096, W (ix2 (i 1 : Fin 11008) k) = wr k)
    (hb : B (ix2 (0 : Fin 1) (i 1 : Fin 11008)) = b) :
    layer X W B i = outEntry xr wr b := by
  unfold layer
  rw [funext hx, funext hw, hb]

end Cert.QuantLinear

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.KernelTile.lean ====
/-
  One tile of the kernel: the 512×128 block the body stores, as a function of the three blocks it loads — 512 rows of the
  activations, 128 rows of the weights, 128 bias entries. Entry (p, q) of the stored block is the layer's output entry for
  row p of the activation block against row q of the weight block, plus bias entry q: the body takes each activation row's
  largest magnitude with a lane maximum, keeps it as a column, floors it and divides by 7, rounds the row to multiples of that
  step, and contracts the rounded rows with the transposed weight block into a zero accumulator. Narrowing to bf16 before the
  contraction changes nothing on the extended reals.
-/
import proofs.«106530_j14843406975731_1_alg».proof.Proof.Gen.KernelIdeal.Skeleton
import proofs.«106530_j14843406975731_1_alg».proof.Proof.QuantSpec
import proofs.«106530_j14843406975731_1_alg».proof.Proof.LibPlainDot
import proofs.«106530_j14843406975731_1_alg».proof.Proof.LibKeepdims
import Idealize.ShloMosaic.Lib.ValueLayout
import Idealize.ShloMosaic.Lib.Pipeline.Value

noncomputable section

open scoped BigOperators

namespace Cert.KernelIdeal.Tile

open Cert.KernelIdeal Cert.KernelIdeal.Gen Cert.QuantLinear Idealize.ShloMosaic Idealize.ShloMosaic.ValueIdx

/-- The column of quantisation steps of an activation block: per row, the largest magnitude floored at the literal, over 7. -/
def stepCol (x0 : FVec Ideal S512x4096 .f32) : FVec Ideal S512x1 .f32 :=
  divf (maximumf (shapeCast S512x1 (multiReduction .maximumf [1] S512 (absf (shapeCast S512x4096 x0 shapeCasts_S512x4096_S512x4096)) 0xFF800000#32 reduces_S512x4096_S512 (.inl rfl) rfl) shapeCasts_S512_S512x1)
    (broadcast S512x1 (Scalar.ofBits .f32 0x3727C5AC#32))) (broadcast S512x1 (Scalar.ofBits .f32 0x40E00000#32))

/-- The activation block rounded, row by row, to multiples of its row's step. -/
def quantTile (x0 : FVec Ideal S512x4096 .f32) : FVec Ideal S512x4096 .f32 :=
  mulf (roundeven (divf (shapeCast S512x4096 x0 shapeCasts_S512x4096_S512x4096) (broadcastTo S512x4096 (stepCol x0) broadcasts_S512x1_S512x4096)))
    (broadcastTo S512x4096 (stepCol x0) broadcasts_S512x1_S512x4096)

/-- The stored block is the rounded activations contracted with the transposed weight block, plus the bias row. -/
theorem pay_eq (x0 : Vec Ideal S512x4096 .f32) (x1 : Vec Ideal S128x4096 .f32) (x2 : Vec Ideal S1x128 .f32) :
    k0_pay1 (F := Ideal) x0 x1 x2
      = addf (matmul dot_S512x4096_S4096x128_S512x128_1_0_0_1_n_n none (truncf .bf16 (quantTile x0) bitsLt_bf16_f32)
          (transpose S4096x128 [1, 0] (truncf .bf16 x1 bitsLt_bf16_f32) transposes_S128x4096_p1_0_S4096x128) (constant S512x128 .f32 0x00000000#32))
        (broadcastTo S512x128 x2 broadcasts_S1x128_S512x128) := rfl

/-- The step column at row p is the step of row p. -/
theorem stepCol_apply (x0 : FVec Ideal S512x4096 .f32) (p : Fin 512) (u : Fin 1) :
    stepCol x0 (ix2 p u) = rowScale (fun k => x0 (ix2 p k)) := by
  have hmax : shapeCast S512x1 (multiReduction .maximumf [1] S512 (absf (shapeCast S512x4096 x0 shapeCasts_S512x4096_S512x4096)) 0xFF800000#32 reduces_S512x4096_S512 (.inl rfl) rfl) shapeCasts_S512_S512x1 (ix2 p u)
      = rowAbsMax (fun k => x0 (ix2 p k)) := by
    rw [shapeCast_self]
    exact (Keepdims.shapeCast_a_a1_apply _ _ p u).trans (rowmax_vector x0 _ _ _ p)
  unfold stepCol rowScale
  rw [divf_apply, maximumf_apply, broadcast_apply, broadcast_apply, hmax]
  rfl

/-- The rounded block at (p, k) is entry k of row p rounded to its row's step. -/
theorem quantTile_apply (x0 : FVec Ideal S512x4096 .f32) (p : Fin 512) (k : Fin 4096) :
    quantTile x0 (ix2 p k) = quant (fun k => x0 (ix2 p k)) k := by
  have hs : broadcastTo S512x4096 (stepCol x0) broadcasts_S512x1_S512x4096 (ix2 p k) = rowScale (fun k => x0 (ix2 p k)) :=
    (Keepdims.broadcastTo_a1_ab_apply _ _ p k).trans (stepCol_apply x0 p 0)
  have hx : shapeCast S512x4096 x0 shapeCasts_S512x4096_S512x4096 (ix2 p k) = x0 (ix2 p k) := by rw [shapeCast_self]
  have e : quantTile x0 (ix2 p k)
      = Ideal.liftRound Ideal.roundHalfEven (Ideal.div (shapeCast S512x4096 x0 shapeCasts_S512x4096_S512x4096 (ix2 p k))
          (broadcastTo S512x4096 (stepCol x0) broadcasts_S512x1_S512x4096 (ix2 p k)))
        * broadcastTo S512x4096 (stepCol x0) broadcasts_S512x1_S512x4096 (ix2 p k) := rfl
  rw [e, hs, hx]
  rfl

/-- The body's contraction is a plain 512×4096 by 4096×128 product. -/
theorem dot_plain : dot_S512x4096_S4096x128_S512x128_1_0_0_1_n_n = DotDims.plain 512 4096 128 := rfl

/-- THE TILE: entry (p, q) of the stored block is the layer's entry for activation row p, weight row q and bias entry q. -/
theorem pay_apply (x0 : Vec Ideal S512x4096 .f32) (x1 : Vec Ideal S128x4096 .f32) (x2 : Vec Ideal S1x128 .f32)
    (p : Fin 512) (q : Fin 128) :
    k0_pay1 (F := Ideal) x0 x1 x2 (ix2 p q)
      = outEntry (fun k => x0 (ix2 p k)) (fun k => x1 (ix2 q k)) (x2 (ix2 (0 : Fin 1) q)) := by
  have hdot : matmul dot_S512x4096_S4096x128_S512x128_1_0_0_1_n_n none (truncf .bf16 (quantTile x0) bitsLt_bf16_f32)
        (transpose S4096x128 [1, 0] (truncf .bf16 x1 bitsLt_bf16_f32) transposes_S128x4096_p1_0_S4096x128) (constant S512x128 .f32 0x00000000#32) (ix2 p q)
      = ∑ k : Fin 4096, quant (fun k => x0 (ix2 p k)) k * x1 (ix2 q k) := by
    rw [dot_plain]
    refine (PlainDot.matmul_zero_apply (M := 512) (K := 4096) (N := 128) none _ _ p q).trans ?_
    refine Finset.sum_congr rfl fun k _ => ?_
    have hl : (truncf .bf16 (quantTile x0) bitsLt_bf16_f32 : FVec Ideal S512x4096 .bf16) (ix2 p k) = quant (fun k => x0 (ix2 p k)) k :=
      quantTile_apply x0 p k
    have hr : transpose S4096x128 [1, 0] (truncf .bf16 x1 bitsLt_bf16_f32 : FVec Ideal S128x4096 .bf16) transposes_S128x4096_p1_0_S4096x128 (ix2 k q) = x1 (ix2 q k) :=
      transpose_ix2_apply _ _ k q
    rw [hl, hr]
  have hb : broadcastTo S512x128 x2 broadcasts_S1x128_S512x128 (ix2 p q) = x2 (ix2 (0 : Fin 1) q) :=
    broadcastTo_1b_ab_apply x2 _ p q
  rw [pay_eq]
  show matmul dot_S512x4096_S4096x128_S512x128_1_0_0_1_n_n none (truncf .bf16 (quantTile x0) bitsLt_bf16_f32)
        (transpose S4096x128 [1, 0] (truncf .bf16 x1 bitsLt_bf16_f32) transposes_S128x4096_p1_0_S4096x128) (constant S512x128 .f32 0x00000000#32) (ix2 p q)
      + broadcastTo S512x128 x2 broadcasts_S1x128_S512x128 (ix2 p q) = _
  rw [hdot, hb]
  rfl

end Cert.KernelIdeal.Tile

end
-- ==== Proof.KernelWhole.lean ====
/-
  The kernel's output array after the run, and its result.

  The grid has 16 × 86 points, point t being tile (t / 86, t % 86): it reads rows 512·(t / 86) … of the reshaped activations,
  rows 128·(t % 86) … of the weights and bias entries 128·(t % 86) …, and writes the 512×128 block of the output at
  (512·(t / 86), 128·(t % 86)). The block it writes is the layer read through that block, because an output entry uses only
  its own activation row, its own weight row and its own bias entry, which are exactly the rows the tile loaded. The blocks
  tile the 8192×11008 output, so after the run the array is the layer; @main reshapes it to 4×2048×11008.
-/
import proofs.«106530_j14843406975731_1_alg».proof.Proof.Gen.KernelIdeal.Frame
import proofs.«106530_j14843406975731_1_alg».proof.Proof.KernelTile
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.QuantLinear Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid in closed form: point t is tile (t / 86, t % 86). -/
theorem idx_facts : ∀ t : Fin cfg0.N,
    win0_0.index t (0 : Fin 2) = t.val / 86 ∧ win0_0.index t (1 : Fin 2) = 0
    ∧ win0_1.index t (0 : Fin 2) = t.val % 86 ∧ win0_1.index t (1 : Fin 2) = 0
    ∧ win0_2.index t (0 : Fin 2) = 0 ∧ win0_2.index t (1 : Fin 2) = t.val % 86
    ∧ win0_3.index t (0 : Fin 2) = t.val / 86 ∧ win0_3.index t (1 : Fin 2) = t.val % 86 :=
  (by decide +kernel : ∀ t : Fin grid0.N, _)

/-- The layer of the arrays as the region finds them. -/
abbrev G (c : Dev nD) : S8192x11008.Idx → EReal :=
  layer (V m c main_v0 : S8192x4096.Idx → EReal) (V m c main_arg1 : S11008x4096.Idx → EReal) (V m c main_arg2 : S1x11008.Idx → EReal)

/-- The activation block of point t is rows 512·(t / 86) … of the reshaped activations. -/
theorem iblk0_apply (c : Dev nD) (t : Fin cfg0.N) (y : S512x4096.Idx) (i : S8192x4096.Idx)
    (h0 : (i 0).val = t.val / 86 * 512 + (y 0).val) (h1 : (i 1).val = (y 1).val) :
    (iblk m c 0 t : Vec Ideal S512x4096 .f32) y = (V m c main_v0 : S8192x4096.Idx → EReal) i := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 512 + 1 * (y 0).val = (i 0).val; rw [e0, h0]; omega
  | ⟨1, _⟩ => show win0_0.index t (1 : Fin 2) * 4096 + 1 * (y 1).val = (i 1).val; rw [e1, h1]; omega

/-- The weight block of point t is rows 128·(t % 86) … of the weights. -/
theorem iblk1_apply (c : Dev nD) (t : Fin cfg0.N) (y : S128x4096.Idx) (i : S11008x4096.Idx)
    (h0 : (i 0).val = t.val % 86 * 128 + (y 0).val) (h1 : (i 1).val = (y 1).val) :
    (iblk m c 1 t : Vec Ideal S128x4096 .f32) y = (V m c main_arg1 : S11008x4096.Idx → EReal) i := by
  obtain ⟨-, -, e2, e3, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 128 + 1 * (y 0).val = (i 0).val; rw [e2, h0]; omega
  | ⟨1, _⟩ => show win0_1.index t (1 : Fin 2) * 4096 + 1 * (y 1).val = (i 1).val; rw [e3, h1]; omega

/-- The bias block of point t is entries 128·(t % 86) … of the bias row. -/
theorem iblk2_apply (c : Dev nD) (t : Fin cfg0.N) (y : S1x128.Idx) (i : S1x11008.Idx)
    (h0 : (i 0).val = (y 0).val) (h1 : (i 1).val = t.val % 86 * 128 + (y 1).val) :
    (iblk m c 2 t : Vec Ideal S1x128 .f32) y = (V m c main_arg2 : S1x11008.Idx → EReal) i := by
  obtain ⟨-, -, -, -, e4, e5, -⟩ := idx_facts t
  unfold iblk
  rw [View.read_apply]
  show V m c main_arg2 _ = V m c main_arg2 _
  refine congrArg (V m c main_arg2) (funext fun a => Fin.ext ?_)
  match a with
  | ⟨0, _⟩ => show win0_2.index t (0 : Fin 2) * 1 + 1 * (y 0).val = (i 0).val; rw [e4, h0]; omega
  | ⟨1, _⟩ => show win0_2.index t (1 : Fin 2) * 128 + 1 * (y 1).val = (i 1).val; rw [e5, h1]; omega

/-- Entry (p, q) of the output block of point t sits at row 512·(t / 86) + p … -/
theorem emb3_row (t : Fin cfg0.N) (p : Fin 512) (q : Fin 128) :
    ((((cfg0.win 3).blk t).view.emb (ix2 p q) : S8192x11008.Idx) 0).val = t.val / 86 * 512 + p.val := by
  obtain ⟨-, -, -, -, -, -, e6, -⟩ := idx_facts t
  show win0_3.index t (0 : Fin 2) * 512 + 1 * p.val = _
  rw [e6]; omega

/-- … and column 128·(t % 86) + q of the output. -/
theorem emb3_col (t : Fin cfg0.N) (p : Fin 512) (q : Fin 128) :
    ((((cfg0.win 3).blk t).view.emb (ix2 p q) : S8192x11008.Idx) 1).val = t.val % 86 * 128 + q.val := by
  obtain ⟨-, -, -, -, -, -, -, e7⟩ := idx_facts t
  show win0_3.index t (1 : Fin 2) * 128 + 1 * q.val = _
  rw [e7]; omega

/-- WHAT POINT t WRITES BACK is block t of the layer of the arrays as the region finds them. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold out0_3
  rw [View.canon_unit_zero hz]
  simp only [View.ld_unit_zero (S := S512x4096) hz, View.ld_unit_zero (S := S128x4096) hz, View.ld_unit_zero (S := S1x128) hz]
  funext j
  obtain ⟨p, q, rfl⟩ : ∃ (p : Fin 512) (q : Fin 128), j = ix2 p q := ⟨j 0, j 1, eq_ix2 j⟩
  show k0_pay1 (iblk m c 0 t) (iblk m c 1 t) (iblk m c 2 t) (ix2 p q) = G m c (((cfg0.win 3).blk t).view.emb (ix2 p q))
  have hr := emb3_row t p q
  have hc := emb3_col t p q
  refine (Tile.pay_apply _ _ _ p q).trans (layer_eq_of _ _ _ _ _ _ _ (fun k => ?_) (fun k => ?_) ?_).symm
  · exact (iblk0_apply m c t (ix2 p k) _ hr rfl).symm
  · exact (iblk1_apply m c t (ix2 q k) _ hc rfl).symm
  · exact (iblk2_apply m c t (ix2 (0 : Fin 1) q) _ rfl hc).symm

/-- An index of the output is in point t's block iff each coordinate is in the block's range on its axis. -/
theorem mem_blk (t : Fin cfg0.N) (i : S8192x11008.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v1).slice (win0_3.rect t)).set ↔ _
  rw [View.set_slice_whole, Rect.mem_set_unit]
  exact Iff.rfl

/-- Every output entry is written: entry (r, c) by the point of tile (r / 512, c / 128). -/
theorem cover (i : S8192x11008.Idx) : ∃ t : Fin cfg0.N, (cfg0.win 3).flush t = true ∧ i ∈ ((cfg0.win 3).blk t).view.set := by
  have hi0 : (i 0).val < 8192 := (i 0).isLt
  have hi1 : (i 1).val < 11008 := (i 1).isLt
  have hN : cfg0.N = 1376 := N_0
  let t : Fin cfg0.N := ⟨(i 0).val / 512 * 86 + (i 1).val / 128, by rw [hN]; omega⟩
  have ht : t.val = (i 0).val / 512 * 86 + (i 1).val / 128 := rfl
  obtain ⟨-, -, -, -, -, -, e6, e7⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; rw [e6, ht]; omega
  | ⟨1, _⟩ => show win0_3.index t (1 : Fin 2) * 128 ≤ (i 1).val ∧ (i 1).val < win0_3.index t (1 : Fin 2) * 128 + 128; rw [e7, ht]; omega

/-- THE OUTPUT ARRAY after the run is the layer of the arrays as the region finds them. -/
theorem final (c : Dev nD) : (dats m 0 c).arrAt 3 cfg0.N = G m c :=
  (dats m 0 c).arrAt_eq_of_cover 3 (G m c) (fun t _ => flushed_eq m c t) (cover)

end Cert.KernelIdeal.Whole

end
-- ==== Proof.KernelRun.lean ====
/-
  The kernel program's run, read: @main reshapes the 4×2048×4096 activations to 8192×4096 before the region, the region
  leaves the layer in its 8192×11008 output array, and @main reshapes that to the 4×2048×11008 result. The three argument
  arrays end as they were launched.
-/
import proofs.«106530_j14843406975731_1_alg».proof.Proof.KernelWhole

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.QuantLinear Idealize.ShloMosaic.ValueIdx

variable (m : (ℓ : Loc nD τ sig) → Buf (Elt Ideal) ℓ) (ρ : Dev nD → PrngReg)

/-- The region finds the activations reshaped to 8192×4096 by @main's first line. -/
theorem V_main_v0 (c : Dev nD) :
    (V m c main_v0 : S8192x4096.Idx → EReal)
      = shapeCast S8192x4096 (m ((c : Thread nD τ).loc main_arg0) : S4x2048x4096.Idx → EReal) shapeCasts_S4x2048x4096_S8192x4096 := by
  show StableHlo.after hostOps0 (fun b => m (c, b)) (Proc.devRef .tc main_v0) = _
  after_results
  rfl

/-- The layer of the launched arguments: of the activations reshaped, the weights and the bias. -/
abbrev result (c : Dev nD) : S4x2048x11008.Idx → EReal :=
  shapeCast S4x2048x11008
    (layer (shapeCast S8192x4096 (m ((c : Thread nD τ).loc main_arg0) : S4x2048x4096.Idx → EReal) shapeCasts_S4x2048x4096_S8192x4096)
      (m ((c : Thread nD τ).loc main_arg1) : S11008x4096.Idx → EReal) (m ((c : Thread nD τ).loc main_arg2) : S1x11008.Idx → EReal))
    shapeCasts_S8192x11008_S4x2048x11008

/-- What the region finds is what was launched, the activations reshaped. -/
theorem G_eq (c : Dev nD) :
    G m c = layer (shapeCast S8192x4096 (m ((c : Thread nD τ).loc main_arg0) : S4x2048x4096.Idx → EReal) shapeCasts_S4x2048x4096_S8192x4096)
      (m ((c : Thread nD τ).loc main_arg1) : S11008x4096.Idx → EReal) (m ((c : Thread nD τ).loc main_arg2) : S1x11008.Idx → EReal) := by
  show layer (V m c main_v0 : S8192x4096.Idx → EReal) (V m c main_arg1 : S11008x4096.Idx → EReal) (V m c main_arg2 : S1x11008.Idx → EReal) = _
  rw [V_main_v0 m c, V_main_arg1 m c, V_main_arg2 m c]

/-- @main's last line reshapes the region's output array: the result buffer ends at the layer, reshaped. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1) = G m c :=
    (Pipeline.withArrays_arr spec0 launch0.win.arr_inj c _ _ 3).trans (final m c)
  rw [hw, G_eq m c]
  rfl

/-- THE RUN, READ: every weakly fair execution of @main terminates with the result buffer at the layer of the launched
    arguments, reshaped to 4×2048×11008, and the three argument arrays as launched. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Whole

end
-- ==== Proof.RefLayer.lean ====
/-
  The reference, read entry by entry: before its final reshape it holds, at (r, c), the layer's output entry for row r of the
  reshaped activations, row c of the weights and bias entry c. Its operations are the layer's own, one array at a time: the
  magnitudes, their row maximum from -∞ kept as a column, the floor and the division by 7, the rounded quotient times the
  step, the product with the transposed weights as a sum over the 4096 input features, and the bias broadcast down the rows.
-/
import proofs.«106530_j14843406975731_1_alg».proof.Proof.Gen.ReferenceIdeal.Read
import proofs.«106530_j14843406975731_1_alg».proof.Proof.QuantSpec

noncomputable section

open scoped BigOperators

namespace Cert.ReferenceIdeal.RefValue

open Cert.ReferenceIdeal Cert.ReferenceIdeal.Gen Cert.ReferenceIdeal.Read Cert.QuantLinear
open Idealize.ShloMosaic Idealize.ShloMosaic.ValueIdx

/-- The row maximum of the magnitudes at row r is that row's largest magnitude. -/
theorem rowmax_ref (x0 : (⟨S4x2048x4096, .f32⟩ : BufTy).Contents (Elt Ideal)) (r : Fin 8192) :
    val_main_v2 (F := Ideal) x0 (ix1 r) = rowAbsMax (fun k => val_main_v0 (F := Ideal) x0 (ix2 r k)) := by
  unfold val_main_v2 val_main_v1 val_main_cst
  exact rowmax_host (val_main_v0 (F := Ideal) x0) reducesTo_S8192x4096_S8192_d1 (by decide) h_S_ r

/-- The step column at row r is the step of row r. -/
theorem step_ref (x0 : (⟨S4x2048x4096, .f32⟩ : BufTy).Contents (Elt Ideal)) (r : Fin 8192) (u : Fin 1) :
    val_main_v7 (F := Ideal) x0 (ix2 r u) = rowScale (fun k => val_main_v0 (F := Ideal) x0 (ix2 r k)) := by
  have h3 : idx_main_v3 (ix2 r u) = ix1 r := funext fun a => Fin.ext (by match a with | ⟨0, _⟩ => rfl)
  rw [val_main_v7_apply, val_main_v5_apply, val_main_v3_apply, val_main_v4_apply, val_main_cst_0_apply, val_main_v6_apply,
    val_main_cst_1_apply, h3, rowmax_ref x0 r]
  rfl

/-- The rounded activations at (r, k): entry k of row r rounded to its row's step. -/
theorem quant_ref (x0 : (⟨S4x2048x4096, .f32⟩ : BufTy).Contents (Elt Ideal)) (r : Fin 8192) (k : Fin 4096) :
    val_main_v12 (F := Ideal) x0 (ix2 r k) = quant (fun k => val_main_v0 (F := Ideal) x0 (ix2 r k)) k := by
  have h8 : idx_main_v8 (ix2 r k) = ix2 r (0 : Fin 1) :=
    funext fun a => Fin.ext (by match a with | ⟨0, _⟩ => rfl | ⟨1, _⟩ => rfl)
  have h11 : idx_main_v11 (ix2 r k) = ix2 r (0 : Fin 1) :=
    funext fun a => Fin.ext (by match a with | ⟨0, _⟩ => rfl | ⟨1, _⟩ => rfl)
  rw [val_main_v12_apply, val_main_v10_apply, val_main_v9_apply, val_main_v8_apply, val_main_v11_apply, h8, h11, step_ref x0 r 0]
  rfl

/-- THE REFERENCE before its final reshape is the layer of the reshaped activations, the weights and the bias. -/
theorem ref_layer (x0 : (⟨S4x2048x4096, .f32⟩ : BufTy).Contents (Elt Ideal)) (x1 : (⟨S11008x4096, .f32⟩ : BufTy).Contents (Elt Ideal))
    (x2 : (⟨S1x11008, .f32⟩ : BufTy).Contents (Elt Ideal)) :
    val_main_v16 (F := Ideal) x0 x1 x2 = layer (val_main_v0 (F := Ideal) x0) x1 x2 := by
  funext i
  obtain ⟨r, c, rfl⟩ : ∃ (r : Fin 8192) (c : Fin 11008), i = ix2 r c := ⟨i 0, i 1, eq_ix2 i⟩
  have hb : idx_main_v15 (ix2 r c) = ix2 (0 : Fin 1) c :=
    funext fun a => Fin.ext (by match a with | ⟨0, _⟩ => rfl | ⟨1, _⟩ => rfl)
  rw [layer_apply, val_main_v16_apply, val_main_v14_apply, val_main_v15_apply, hb]
  unfold outEntry
  refine congrArg (· + x2 (ix2 (0 : Fin 1) c)) (Finset.sum_congr rfl fun k _ => ?_)
  have hl : lidx_main_v14 (ix2 r c) k = ix2 r k :=
    funext fun a => Fin.ext (by match a with | ⟨0, _⟩ => rfl | ⟨1, _⟩ => rfl)
  have hr : ridx_main_v14 (ix2 r c) k = ix2 k c :=
    funext fun a => Fin.ext (by match a with | ⟨0, _⟩ => rfl | ⟨1, _⟩ => rfl)
  have ht : idx_main_v13 (ix2 k c) = ix2 c k :=
    funext fun a => Fin.ext (by match a with | ⟨0, _⟩ => rfl | ⟨1, _⟩ => rfl)
  rw [hl, hr, val_main_v13_apply, ht, quant_ref x0 r k]

end Cert.ReferenceIdeal.RefValue

end
-- ==== Proof.lean ====
/-
  A linear layer on activations that are first quantised per token to 4 bits and put back on their scale ("fake" quantisation):
  for each of the 8192 rows x of the activations, with A = max_k |x_k| and step s = max(A, ε) / 7 (ε the f32 nearest 1e-5),
  q_k = roundeven(x_k / s) · s, and the output row is q · Wᵀ + b over the 11008 output channels.

  The kernel computes this on a 16 × 86 grid of 512×128 output tiles, each tile from 512 whole activation rows, 128 whole weight
  rows and 128 bias entries; it narrows both matmul operands to bf16, which on the extended reals changes nothing. The
  reference computes the same expression on whole arrays. An output entry depends only on its own activation row, its own
  weight row and its own bias entry, so the tile that holds the entry has everything it reads, and the two programs are one
  function of the arguments, entry by entry, with the same literals (-∞, ε, 7): no algebraic law is used beyond reading both
  programs' operations at an index, so the finiteness of the inputs is never needed.

  Modules: QuantSpec (the function, and a row's largest magnitude as both programs' reductions compute it), KernelTile (one tile
  of the kernel body), KernelWhole (the tiles cover the output array), KernelRun (the kernel program's run with its two
  reshapes), RefLayer (the reference read entry by entry). The three frames are the generated frame runs; the kernel's
  idealisation rewrote nothing.
-/
import proofs.«106530_j14843406975731_1_alg».proof.Defs
import proofs.«106530_j14843406975731_1_alg».proof.Proof.Gen.Kernel
import proofs.«106530_j14843406975731_1_alg».proof.Proof.Gen.Kernel.Skeleton
import proofs.«106530_j14843406975731_1_alg».proof.Proof.Gen.Kernel.Launch
import proofs.«106530_j14843406975731_1_alg».proof.Proof.Gen.Kernel.Points
import proofs.«106530_j14843406975731_1_alg».proof.Proof.Gen.Kernel.Frame
import proofs.«106530_j14843406975731_1_alg».proof.Proof.Gen.KernelIdeal
import proofs.«106530_j14843406975731_1_alg».proof.Proof.Gen.KernelIdeal.Skeleton
import proofs.«106530_j14843406975731_1_alg».proof.Proof.Gen.KernelIdeal.Launch
import proofs.«106530_j14843406975731_1_alg».proof.Proof.Gen.KernelIdeal.Points
import proofs.«106530_j14843406975731_1_alg».proof.Proof.Gen.KernelIdeal.Frame
import proofs.«106530_j14843406975731_1_alg».proof.Proof.Gen.ReferenceIdeal
import proofs.«106530_j14843406975731_1_alg».proof.Proof.Gen.Pre_finite_inputs
import proofs.«106530_j14843406975731_1_alg».proof.Proof.Gen.ReferenceIdeal.Run
import proofs.«106530_j14843406975731_1_alg».proof.Proof.Gen.ReferenceIdeal.Read
import proofs.«106530_j14843406975731_1_alg».proof.Proof.KernelRun
import proofs.«106530_j14843406975731_1_alg».proof.Proof.RefLayer
import Idealize.ShloMosaic.Adequacy
import Idealize.ShloMosaic.Init

noncomputable section

namespace Cert.Proof

open Idealize.ShloMosaic Idealize.SL.Sem

/-- The word-level kernel program terminates without a fault and keeps its arguments: the generated frame run. -/
theorem frame_k : Cert.frame_Kernel (hKernel := Cert.Kernel.Gen.facts) (hPre_finite_inputs := Cert.Pre_finite_inputs.Gen.facts) :=
  fun m ρ _ => Cert.Kernel.Gen.frame m ρ

/-- The same of the kernel program read on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is straight-line host code: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the three arguments both programs end with the layer of those arguments, reshaped to
    4×2048×11008: the kernel by its tiles, the reference entry by entry, the reshapes before and after being the same two. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2]
  unfold Cert.ReferenceIdeal.Read.val_main_v17
  rw [Cert.ReferenceIdeal.RefValue.ref_layer]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
